-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S_ : Shape := ⟨0, ![]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 13
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S8192x4096, .bf16⟩
  | .hbm, ⟨12, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v7) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.RowDot.lean ====
/-
  The function both programs compute, stated over no program.

  A weight matrix `w` (4096 × 4096) is BINARIZED: every entry is replaced by its sign times one common scale, the mean
  of the absolute values of all entries (their sum divided by 4096 · 4096 = 2²⁴). An input matrix `x` (8192 × 4096) is
  then multiplied by the transpose of the binarized weights: entry (n, o) of the result is the sum over `k` of
  `x[n, k] · b[o, k]`. On the extended reals this is one finite sum per entry; nothing about it depends on the order
  or grouping of the summands, and no summand is moved across another, so no finiteness is used anywhere.
-/
import Idealize.ShloMosaic.Lib.ValueIdx
import Idealize.ShloMosaic.PureOps.Ideal.Laws

noncomputable section

open scoped BigOperators

namespace Cert.BinLinear

open Idealize.ShloMosaic Idealize.ShloMosaic.ValueIdx

/-- The input matrix's shape, the weight matrix's shape, and the scalar shape. -/
abbrev SX : Shape := ⟨2, ![8192, 4096]⟩
abbrev SW : Shape := ⟨2, ![4096, 4096]⟩
abbrev S0 : Shape := ⟨0, ![]⟩

/-- The binarized weights: `sign w` entry by entry, times the mean of `|w|` over all entries (the sum of the absolute
    values, started from zero, divided by 2²⁴ = 16777216, laid along every entry). The three shape relations are the
    ones the sum and the broadcast take; any proofs of them give the same array. -/
def binarized (hr : SW.ReducesTo [0, 1] S0) (h0 : 0 < S0.numel)
    (hb : S0.BroadcastsInDim SW (![] : Fin 0 → Fin SW.rank)) (w : FVec Ideal SW .f32) : FVec Ideal SW .f32 :=
  mulf (Host.sign w) (broadcastInDim SW ![] hb
    (Host.divf (Host.reduceAdd (F := Ideal) (Host.absf w) (constant (F := Ideal) S0 .f32 0x00000000#32) hr h0)
      (constant (F := Ideal) S0 .f32 0x4B800000#32)))

/-- `x` times the transpose of `b`: entry (n, o) is the sum over the shared axis `k` of `x[n, k] · b[o, k]`. -/
def rowDot (x : SX.Idx → EReal) (b : SW.Idx → EReal) : SX.Idx → EReal :=
  fun i => ∑ k : Fin 4096, x (ix2 (i 0 : Fin 8192) k) * b (ix2 (i 1 : Fin 4096) k)

/-- The same entry with the two coordinates named. -/
theorem rowDot_ix2 (x : SX.Idx → EReal) (b : SW.Idx → EReal) (n : Fin 8192) (o : Fin 4096) :
    rowDot x b (ix2 n o) = ∑ k : Fin 4096, x (ix2 n k) * b (ix2 o k) := rfl

end Cert.BinLinear

end
-- ==== Proof.BlockProduct.lean ====
/-
  One grid point's arithmetic, read at an entry.

  The body loads a block `a` of 1024 rows of the input (all 4096 columns) and a block `b` of 512 rows of the binarized
  weights (all 4096 columns), and stores their product contracted over the columns, accumulated into zero. Entry
  (p, q) of what it stores is therefore the sum over `k` of `a[p, k] · b[q, k]`: the accumulator contributes
  `0 + ·`, which is the identity on every extended real, and the contraction index has one axis, of extent 4096, so the
  sum over it is a sum over `k : Fin 4096`.
-/
import proofs.«125270_j541165879835_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-- The left operand's index at output entry `j` and contraction index `q`: row `j 0`, … -/
theorem lhs_row (j : S1024x512.Idx) (q : dot_S1024x4096_S512x4096_S1024x512_1_1_0_0_n_n.contr.Idx) :
    (dot_S1024x4096_S512x4096_S1024x512_1_1_0_0_n_n.lhsIdx j q 0).val = (j 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl
/-- … column the contraction index's one coordinate. -/
theorem lhs_col (j : S1024x512.Idx) (q : dot_S1024x4096_S512x4096_S1024x512_1_1_0_0_n_n.contr.Idx) :
    (dot_S1024x4096_S512x4096_S1024x512_1_1_0_0_n_n.lhsIdx j q 1).val = (q ⟨0, by decide⟩).val :=
  dot_S1024x4096_S512x4096_S1024x512_1_1_0_0_n_n.lhsIdx_val_of_single rfl j q
/-- The right operand's index: row `j 1` (the weights are contracted along their columns too), … -/
theorem rhs_row (j : S1024x512.Idx) (q : dot_S1024x4096_S512x4096_S1024x512_1_1_0_0_n_n.contr.Idx) :
    (dot_S1024x4096_S512x4096_S1024x512_1_1_0_0_n_n.rhsIdx j q 0).val = (j 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl
/-- … column the contraction index's one coordinate. -/
theorem rhs_col (j : S1024x512.Idx) (q : dot_S1024x4096_S512x4096_S1024x512_1_1_0_0_n_n.contr.Idx) :
    (dot_S1024x4096_S512x4096_S1024x512_1_1_0_0_n_n.rhsIdx j q 1).val = (q ⟨0, by decide⟩).val :=
  dot_S1024x4096_S512x4096_S1024x512_1_1_0_0_n_n.rhsIdx_val_of_single rfl j q

/-- ENTRY (p, q) OF WHAT THE BODY STORES: the sum over `k` of `a[p, k] · b[q, k]`. -/
theorem stored_apply (a : FVec Ideal S1024x4096 .bf16) (b : FVec Ideal S512x4096 .bf16) (p : Fin 1024) (q : Fin 512) :
    k0_pay1 (F := Ideal) a b (ix2 p q) = ∑ k : Fin 4096, a (ix2 p k) * b (ix2 q k) := by
  unfold k0_pay1
  rw [shapeCast_self, shapeCast_self]
  refine (Ideal.matmul_constant_zero_apply dot_S1024x4096_S512x4096_S1024x512_1_1_0_0_n_n none a b (ix2 p q)).trans ?_
  rw [← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun d => Fin.ext (by
    match d with
    | ⟨0, _⟩ => exact lhs_row _ _
    | ⟨1, _⟩ => exact (lhs_col _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun d => Fin.ext (by
    match d with
    | ⟨0, _⟩ => exact rhs_row _ _
    | ⟨1, _⟩ => exact (rhs_col _ _).trans hk)
  rw [el, er]

end Cert.KernelIdeal.BlockProduct

end
-- ==== Proof.KernelValue.lean ====
/-
  The kernel's result array as one function of the arguments.

  Before the grid runs, the program writes two arrays: the input with its format changed (the identity on extended
  reals), and the binarized weights with their format changed (the identity again). The grid has 8 × 8 points; at point
  (i, j) the body reads rows 1024·i … 1024·i + 1023 of the first array and rows 512·j … 512·j + 511 of the second, all
  4096 columns of each, and writes the 1024 × 512 block of the result at block position (i, j). Entry (p, q) of that
  block is the sum over `k` of first[1024·i + p, k] · second[512·j + q, k], which is entry (1024·i + p, 512·j + q) of
  `rowDot` of the two arrays. The 64 blocks tile the 8192 × 4096 result — row r lies in block row r / 1024, column s in
  block column s / 512 — so after the run the result array is `rowDot` of the input and the binarized weights.
-/
import proofs.«125270_j541165879835_1_alg».proof.Proof.Gen.KernelIdeal.Value
import proofs.«125270_j541165879835_1_alg».proof.Proof.RowDot
import proofs.«125270_j541165879835_1_alg».proof.Proof.BlockProduct
import Idealize.ShloMosaic.Lib.StableHlo.Run

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.BinLinear
open Idealize.ShloMosaic.Pipeline (Dat)

variable (m : (ℓ : Loc nD τ sig) → Buf (Elt Ideal) ℓ) (ρ : Dev nD → PrngReg)

/-- The binarized weights of the launch contents of the weight argument. -/
abbrev weights (c : Dev nD) : FVec Ideal SW .f32 :=
  binarized Facts₀.reducesTo_S4096x4096_S_d0_1 Facts₀.h_S_ Facts₀.bcast_S_S4096x4096 (m ((c : Thread nD τ).loc main_arg1))

/-! ## The two staged arrays as the grid finds them -/

/-- The two arrays the grid's windows stage, as the grid finds them, read as arrays of extended reals. -/
abbrev stagedX (c : Dev nD) : SX.Idx → EReal := V m c main_v7
abbrev stagedW (c : Dev nD) : SW.Idx → EReal := V m c main_v6

/-- The first staged array is the input: the format change is the identity on extended reals. -/
theorem staged_input (c : Dev nD) :
    stagedX m c = m ((c : Thread nD τ).loc main_arg0) := by
  show (V m c main_v7 : S8192x4096.Idx → EReal) = _
  dsimp only [Gen.V, Gen.hostOps0]
  after_results
  rfl

/-- The second staged array is the binarized weights. -/
theorem staged_weights (c : Dev nD) :
    stagedW m c = weights m c := by
  show (V m c main_v6 : S4096x4096.Idx → EReal) = _
  dsimp only [Gen.V, Gen.hostOps0]
  after_results
  rfl

/-! ## One grid point -/

theorem zero_offsets : (![0, 0] : Fin 2 → Nat) = fun _ => 0 := funext fun a => by fin_cases a <;> rfl

/-- The block positions at a grid point, decided over the 64 points: the input block's row position is the result
    block's, the weight block's row position is the result block's COLUMN position, both read all columns, and the
    result's block positions are below 8. -/
theorem block_positions : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every block position of the 8 × 8 tiling is some grid point's. -/
theorem block_positions_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- WHAT POINT `t` WRITES BACK is block `t` of `rowDot` of the two staged arrays. -/
theorem flushed_eq (c : Dev nD) (t : Fin cfg0.N) :
    (dats m 0 c).flushed 2 t
      = ((cfg0.win 2).blk t).view.read (Elt Ideal) (rowDot (stagedX m c) (stagedW m c)) := by
  rw [Value.flushed2]
  unfold out0_2
  rw [View.canon_unit_zero zero_offsets]
  simp only [View.ld_unit_zero (S := S1024x4096) zero_offsets, View.ld_unit_zero (S := S512x4096) zero_offsets]
  obtain ⟨e0, e1, e2, e3, -, -⟩ := block_positions t
  funext j
  obtain ⟨p, q, rfl⟩ : ∃ (p : Fin 1024) (q : Fin 512), j = ix2 p q := ⟨j 0, j 1, eq_ix2 j⟩
  show k0_pay1 (iblk m c 0 t) (iblk m c 1 t) (ix2 p q)
    = ∑ k : Fin 4096, stagedX m c (ix2 ((((cfg0.win 2).blk t).view.emb (ix2 p q)) 0 : Fin 8192) k)
        * stagedW m c (ix2 ((((cfg0.win 2).blk t).view.emb (ix2 p q)) 1 : Fin 4096) k)
  refine (BlockProduct.stored_apply _ _ p q).trans ?_
  refine Finset.sum_congr rfl fun k _ => ?_
  have hx : iblk m c 0 t (ix2 p k)
      = stagedX m c (ix2 ((((cfg0.win 2).blk t).view.emb (ix2 p q)) 0 : Fin 8192) k) := by
    show stagedX m c (((cfg0.win 0).blk t).view.emb (ix2 p k)) = _
    refine congrArg (stagedX m c) ?_
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 4096 + 1 * k.val = k.val; omega
  have hw : iblk m c 1 t (ix2 q k)
      = stagedW m c (ix2 ((((cfg0.win 2).blk t).view.emb (ix2 p q)) 1 : Fin 4096) k) := by
    show stagedW m c (((cfg0.win 1).blk t).view.emb (ix2 q k)) = _
    refine congrArg (stagedW m c) ?_
    funext a; apply Fin.ext
    match a with
    | ⟨0, _⟩ => show win0_1.index t (0 : Fin 2) * 512 + 1 * q.val = win0_2.index t (1 : Fin 2) * 512 + 1 * q.val; omega
    | ⟨1, _⟩ => show win0_1.index t (1 : Fin 2) * 4096 + 1 * k.val = k.val; omega
  rw [hx, hw]

/-! ## The blocks tile the result -/

/-- An entry of the result is in point `t`'s block iff each coordinate is in the block's range on its axis. -/
theorem mem_blk (t : Fin cfg0.N) (i : S8192x4096.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v8).slice (win0_2.rect t)).set ↔ _
  rw [View.set_slice_whole, Rect.mem_set_unit]
  exact Iff.rfl

/-- Every entry of the result is in some point's block: row `r` in block row `r / 1024`, column `s` in block column
    `s / 512`. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := block_positions_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 512 ≤ (i 1).val ∧ (i 1).val < win0_2.index t (1 : Fin 2) * 512 + 512
    omega

/-! ## The array after the run, and the run -/

/-- THE RESULT ARRAY after the run: the input times the transpose of the binarized weights. -/
theorem final (c : Dev nD) :
    (dats m 0 c).arrAt 2 cfg0.N = rowDot (m ((c : Thread nD τ).loc main_arg0)) (weights m c) :=
  ((dats m 0 c).arrAt_eq_of_cover 2 (rowDot (stagedX m c) (stagedW m c)) (fun t _ => flushed_eq m c t)
    cover).trans (by rw [staged_input, staged_weights])

/-- Every weakly fair execution of the kernel's program ends with the result array at that function of the launch
    contents of the arguments, and the arguments unchanged. -/
theorem run : θ_run defs (onTc (τ := τ) (main (F := Ideal))) ⟨m, fun _ => 0, ρ⟩ fun r => ∀ c : Dev nD,
      r.2.mem ((c : Thread nD τ).loc main_v8) = rowDot (m ((c : Thread nD τ).loc main_arg0)) (weights m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefValue.lean ====
/-
  The reference, read at an entry.

  The reference binarizes the weights by the same operations (sign, times the mean of the absolute values) and then
  contracts the input with them along their shared axis in ONE product over the whole arrays. Entry (n, o) of that
  product is the sum over `k` of `x[n, k] · b[o, k]`, which is the specification's `rowDot` word for word once the two
  operand indices are written by their coordinates.
-/
import proofs.«125270_j541165879835_1_alg».proof.Proof.Gen.ReferenceIdeal.Read
import proofs.«125270_j541165879835_1_alg».proof.Proof.RowDot

noncomputable section

open scoped BigOperators

namespace Cert.ReferenceIdeal.RefValue

open Cert.ReferenceIdeal Idealize.ShloMosaic Idealize.ShloMosaic.ValueIdx Cert.BinLinear

/-- The reference's right operand is the binarized weight matrix, whichever proofs of the shape relations are used. -/
theorem weights_eq (hr : SW.ReducesTo [0, 1] S0) (h0 : 0 < S0.numel)
    (hb : S0.BroadcastsInDim SW (![] : Fin 0 → Fin SW.rank)) (w : FVec Ideal S4096x4096 .f32) :
    Read.val_main_v5 (F := Ideal) w = binarized hr h0 hb w := rfl

/-- THE REFERENCE'S RESULT is `x` times the transpose of the binarized weights. -/
theorem result_eq (hr : SW.ReducesTo [0, 1] S0) (h0 : 0 < S0.numel)
    (hb : S0.BroadcastsInDim SW (![] : Fin 0 → Fin SW.rank))
    (x : FVec Ideal S8192x4096 .f32) (w : FVec Ideal S4096x4096 .f32) :
    Read.val_main_v6 (F := Ideal) x w = rowDot x (binarized hr h0 hb w) := by
  funext i
  rw [Read.val_main_v6_apply, weights_eq hr h0 hb w]
  refine Finset.sum_congr rfl fun k _ => ?_
  have el : Read.lidx_main_v6 i k = ix2 (i 0 : Fin 8192) k := funext fun a => by
    match a with
    | ⟨0, _⟩ => rfl
    | ⟨1, _⟩ => rfl
  have er : Read.ridx_main_v6 i k = ix2 (i 1 : Fin 4096) k := funext fun a => by
    match a with
    | ⟨0, _⟩ => rfl
    | ⟨1, _⟩ => rfl
  rw [el, er]
  rfl

end Cert.ReferenceIdeal.RefValue

end
-- ==== Proof.lean ====
/-
  A binarized linear layer: the kernel against its reference, on the extended reals.

  Both programs replace every entry of the weight matrix `w` (4096 × 4096) by its sign times one common scale — the
  mean of `|w|` over all entries, computed by the same operations in both — and multiply the input `x` (8192 × 4096)
  by the transpose of the result: entry (n, o) is the sum over `k` of `x[n, k] · b[o, k]`.

  The reference does this in one product over the whole arrays. The kernel first changes the format of `x` and of the
  binarized weights (the identity on extended reals) and then runs a grid of 8 × 8 points; point (i, j) multiplies
  rows 1024·i … of the input by rows 512·j … of the weights, all 4096 columns of each, accumulated into zero, and
  writes the 1024 × 512 block (i, j) of the result. Entry by entry both are the same finite sum: the zero accumulator
  adds `0`, the blocks tile the result, and the contraction is never split. No entry's value is moved across a sum or
  cancelled, so the finiteness of the inputs is not used in the value claim.

  Modules: `RowDot` states the function (`binarized`, `rowDot`) over no program; `BlockProduct` reads one grid point's
  stored block at an entry; `KernelValue` reads the two staged arrays, places each point's block in the result and
  shows the blocks tile it; `RefValue` reads the reference's product at an entry. The idealization rewrote nothing,
  so the kernel and its idealization are one text read at two instances.
-/
import proofs.«125270_j541165879835_1_alg».proof.Defs
import proofs.«125270_j541165879835_1_alg».proof.Proof.Gen.Kernel
import proofs.«125270_j541165879835_1_alg».proof.Proof.Gen.Kernel.Skeleton
import proofs.«125270_j541165879835_1_alg».proof.Proof.Gen.Kernel.Launch
import proofs.«125270_j541165879835_1_alg».proof.Proof.Gen.Kernel.Points
import proofs.«125270_j541165879835_1_alg».proof.Proof.Gen.Kernel.Frame
import proofs.«125270_j541165879835_1_alg».proof.Proof.Gen.KernelIdeal
import proofs.«125270_j541165879835_1_alg».proof.Proof.Gen.KernelIdeal.Skeleton
import proofs.«125270_j541165879835_1_alg».proof.Proof.Gen.KernelIdeal.Launch
import proofs.«125270_j541165879835_1_alg».proof.Proof.Gen.KernelIdeal.Points
import proofs.«125270_j541165879835_1_alg».proof.Proof.Gen.KernelIdeal.Frame
import proofs.«125270_j541165879835_1_alg».proof.Proof.Gen.ReferenceIdeal
import proofs.«125270_j541165879835_1_alg».proof.Proof.Gen.Pre_finite_inputs
import proofs.«125270_j541165879835_1_alg».proof.Proof.Gen.KernelIdeal.Value
import proofs.«125270_j541165879835_1_alg».proof.Proof.Gen.ReferenceIdeal.Run
import proofs.«125270_j541165879835_1_alg».proof.Proof.Gen.ReferenceIdeal.Read
import proofs.«125270_j541165879835_1_alg».proof.Proof.KernelValue
import proofs.«125270_j541165879835_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a sequence of whole-array operations: it runs to the end, and writes neither argument. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x` and `w`, both programs end with the result at `rowDot x (binarized w)`: the
    kernel block by block (`ArrayValue.run`), the reference in one product (`RefValue.result_eq`). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v6_eq _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
